-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x9x512x512 : Shape := ⟨4, ![16, 9, 512, 512]⟩
abbrev S_ : Shape := ⟨0, ![]⟩

class Facts : Prop where
  bcast_S_S16x9x512x512 : S_.BroadcastsInDim S16x9x512x512 (![] : Fin 0 → Fin S16x9x512x512.rank)
  reducesTo_S16x9x512x512_S_d0_1_2_3 : S16x9x512x512.ReducesTo [0, 1, 2, 3] S_
  h_S_ : 0 < S_.numel

variable [Facts]

def fn {F : FTy → Type} [FloatOps F] (main_arg0 : FVec F S16x9x512x512 .f32) : IVec S_ 1 :=
  let main_v0 : FVec F S16x9x512x512 .f32 := Host.absf main_arg0
  let main_cst : FVec F S_ .f32 := constant S_ .f32 0x7F800000#32
  let main_v1 : FVec F S16x9x512x512 .f32 := broadcastInDim S16x9x512x512 ![] bcast_S_S16x9x512x512 main_cst
  let main_v2 : IVec S16x9x512x512 1 := cmpf .olt main_v0 main_v1
  let main_c : IVec S_ 1 := constantI S_ 1 1#1
  let main_v3 : IVec S_ 1 := (fun x v => Host.reduce IntOp.andi x v reducesTo_S16x9x512x512_S_d0_1_2_3 h_S_) main_v2 main_c
  main_v3
-- ==== Kernel.lean ====
abbrev S16x9x512x512 : Shape := ⟨4, ![16, 9, 512, 512]⟩
abbrev S16x1x512x512 : Shape := ⟨4, ![16, 1, 512, 512]⟩
abbrev S1x9x512x512 : Shape := ⟨4, ![1, 9, 512, 512]⟩
abbrev S1x1x512x512 : Shape := ⟨4, ![1, 1, 512, 512]⟩
abbrev S512x512 : Shape := ⟨2, ![512, 512]⟩

abbrev nBuf : Space → Nat
  | .hbm => 2
  | .vmem => 4
  | .smem => 0
  | _ => 0

abbrev bufTy : (tb : Table) → Fin (tcTables nBuf tb) → BufTy
  | .hbm, ⟨0, _⟩ => ⟨S16x9x512x512, .f32⟩
  | .hbm, ⟨1, _⟩ => ⟨S16x1x512x512, .f32⟩
  | .local _ .vmem, ⟨0, _⟩ => ⟨S1x9x512x512, .f32⟩
  | .local _ .vmem, ⟨1, _⟩ => ⟨S1x9x512x512, .f32⟩
  | .local _ .vmem, ⟨2, _⟩ => ⟨S1x1x512x512, .f32⟩
  | .local _ .vmem, ⟨3, _⟩ => ⟨S1x1x512x512, .f32⟩
  | _, _ => ⟨S16x9x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x9x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  iota_S512x512_d0_w32 : S512x512.Iotas .tc 32 [0]
  iota_S512x512_d1_w32 : S512x512.Iotas .tc 32 [1]
  inb_S1x9x512x512_S1x1x512x512_0_0_0_0 : ∀ a, (![0, 0, 0, 0] : Fin 4 → Nat) a + S1x1x512x512.size a ≤ S1x9x512x512.size a
  h_S1x1x512x512 : 0 < S1x1x512x512.numel
  shapeCasts_S1x1x512x512_S512x512 : S1x1x512x512.ShapeCasts S512x512
  rotates_S512x512_d0 : S512x512.Rotates 0 none
  inb_S1x9x512x512_S1x1x512x512_0_3_0_0 : ∀ a, (![0, 3, 0, 0] : Fin 4 → Nat) a + S1x1x512x512.size a ≤ S1x9x512x512.size a
  inb_S1x9x512x512_S1x1x512x512_0_6_0_0 : ∀ a, (![0, 6, 0, 0] : Fin 4 → Nat) a + S1x1x512x512.size a ≤ S1x9x512x512.size a
  inb_S1x9x512x512_S1x1x512x512_0_1_0_0 : ∀ a, (![0, 1, 0, 0] : Fin 4 → Nat) a + S1x1x512x512.size a ≤ S1x9x512x512.size a
  inb_S1x9x512x512_S1x1x512x512_0_4_0_0 : ∀ a, (![0, 4, 0, 0] : Fin 4 → Nat) a + S1x1x512x512.size a ≤ S1x9x512x512.size a
  inb_S1x9x512x512_S1x1x512x512_0_7_0_0 : ∀ a, (![0, 7, 0, 0] : Fin 4 → Nat) a + S1x1x512x512.size a ≤ S1x9x512x512.size a
  inb_S1x9x512x512_S1x1x512x512_0_2_0_0 : ∀ a, (![0, 2, 0, 0] : Fin 4 → Nat) a + S1x1x512x512.size a ≤ S1x9x512x512.size a
  inb_S1x9x512x512_S1x1x512x512_0_5_0_0 : ∀ a, (![0, 5, 0, 0] : Fin 4 → Nat) a + S1x1x512x512.size a ≤ S1x9x512x512.size a
  inb_S1x9x512x512_S1x1x512x512_0_8_0_0 : ∀ a, (![0, 8, 0, 0] : Fin 4 → Nat) a + S1x1x512x512.size a ≤ S1x9x512x512.size a
  rotates_S512x512_d1 : S512x512.Rotates 1 none
  inb_S1x1x512x512_S1x1x512x512_0_0_0_0 : ∀ a, (![0, 0, 0, 0] : Fin 4 → Nat) a + S1x1x512x512.size a ≤ S1x1x512x512.size a
  shapeCasts_S512x512_S1x1x512x512 : S512x512.ShapeCasts S1x1x512x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x9x512x512.size a ≤ S16x9x512x512.size a
  hwx0_0 : ∀ i : grid0.Coords, EltTy.bits .f32 = 32 ∨ (Rect.block (s := S16x9x512x512) S1x9x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512x512.size a ≤ S16x1x512x512.size a
  hwx0_1 : ∀ i : grid0.Coords, EltTy.bits .f32 = 32 ∨ (Rect.block (s := S16x1x512x512) S1x1x512x512.size (cc0_transform_1 i) (hinb0_1 i)).WholeWords (EltTy.packing .f32)

variable [Facts₀]

abbrev win0_0 : Pipeline.Window sig grid0 :=
  Pipeline.Window.ofSpec (Memref.whole main_arg0) S1x9x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x512x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16x9x512x512 : Shape := ⟨4, ![16, 9, 512, 512]⟩
abbrev S_ : Shape := ⟨0, ![]⟩
abbrev S16x9x514x514 : Shape := ⟨4, ![16, 9, 514, 514]⟩
abbrev S16x512x512 : Shape := ⟨3, ![16, 512, 512]⟩
abbrev S16x1x512x512 : Shape := ⟨4, ![16, 1, 512, 512]⟩

abbrev nBuf : Space → Nat
  | .hbm => 34
  | .vmem => 0
  | .smem => 0
  | _ => 0

abbrev bufTy : (tb : Table) → Fin (tcTables nBuf tb) → BufTy
  | .hbm, ⟨0, _⟩ => ⟨S16x9x512x512, .f32⟩
  | .hbm, ⟨1, _⟩ => ⟨S_, .i32⟩
  | .hbm, ⟨2, _⟩ => ⟨S_, .f32⟩
  | .hbm, ⟨3, _⟩ => ⟨S16x9x514x514, .f32⟩
  | .hbm, ⟨4, _⟩ => ⟨S_, .f32⟩
  | .hbm, ⟨5, _⟩ => ⟨S16x512x512, .f32⟩
  | .hbm, ⟨6, _⟩ => ⟨S16x1x512x512, .f32⟩
  | .hbm, ⟨7, _⟩ => ⟨S16x512x512, .f32⟩
  | .hbm, ⟨8, _⟩ => ⟨S16x512x512, .f32⟩
  | .hbm, ⟨9, _⟩ => ⟨S16x1x512x512, .f32⟩
  | .hbm, ⟨10, _⟩ => ⟨S16x512x512, .f32⟩
  | .hbm, ⟨11, _⟩ => ⟨S16x512x512, .f32⟩
  | .hbm, ⟨12, _⟩ => ⟨S16x1x512x512, .f32⟩
  | .hbm, ⟨13, _⟩ => ⟨S16x512x512, .f32⟩
  | .hbm, ⟨14, _⟩ => ⟨S16x512x512, .f32⟩
  | .hbm, ⟨15, _⟩ => ⟨S16x1x512x512, .f32⟩
  | .hbm, ⟨16, _⟩ => ⟨S16x512x512, .f32⟩
  | .hbm, ⟨17, _⟩ => ⟨S16x512x512, .f32⟩
  | .hbm, ⟨18, _⟩ => ⟨S16x1x512x512, .f32⟩
  | .hbm, ⟨19, _⟩ => ⟨S16x512x512, .f32⟩
  | .hbm, ⟨20, _⟩ => ⟨S16x512x512, .f32⟩
  | .hbm, ⟨21, _⟩ => ⟨S16x1x512x512, .f32⟩
  | .hbm, ⟨22, _⟩ => ⟨S16x512x512, .f32⟩
  | .hbm, ⟨23, _⟩ => ⟨S16x512x512, .f32⟩
  | .hbm, ⟨24, _⟩ => ⟨S16x1x512x512, .f32⟩
  | .hbm, ⟨25, _⟩ => ⟨S16x512x512, .f32⟩
  | .hbm, ⟨26, _⟩ => ⟨S16x512x512, .f32⟩
  | .hbm, ⟨27, _⟩ => ⟨S16x1x512x512, .f32⟩
  | .hbm, ⟨28, _⟩ => ⟨S16x512x512, .f32⟩
  | .hbm, ⟨29, _⟩ => ⟨S16x512x512, .f32⟩
  | .hbm, ⟨30, _⟩ => ⟨S16x1x512x512, .f32⟩
  | .hbm, ⟨31, _⟩ => ⟨S16x512x512, .f32⟩
  | .hbm, ⟨32, _⟩ => ⟨S16x512x512, .f32⟩
  | .hbm, ⟨33, _⟩ => ⟨S16x1x512x512, .f32⟩
  | _, _ => ⟨S16x9x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]

class Facts₀ : Prop where
  pads_S16x9x512x512_S16x9x514x514_000_000_110_110 : S16x9x512x512.Pads (![0, 0, 1, 1] : Fin 4 → Nat) ![0, 0, 1, 1] ![0, 0, 0, 0] S16x9x514x514
  h_S_ : 0 < S_.numel
  bcast_S_S16x512x512 : S_.BroadcastsInDim S16x512x512 (![] : Fin 0 → Fin S16x512x512.rank)
  slices_S16x9x514x514_S16x1x512x512_0_0_2_2 : S16x9x514x514.Slices ![0, 0, 2, 2] S16x1x512x512
  shapeCasts_S16x1x512x512_S16x512x512 : S16x1x512x512.ShapeCasts S16x512x512
  slices_S16x9x514x514_S16x1x512x512_0_1_2_1 : S16x9x514x514.Slices ![0, 1, 2, 1] S16x1x512x512
  slices_S16x9x514x514_S16x1x512x512_0_2_2_0 : S16x9x514x514.Slices ![0, 2, 2, 0] S16x1x512x512
  slices_S16x9x514x514_S16x1x512x512_0_3_1_2 : S16x9x514x514.Slices ![0, 3, 1, 2] S16x1x512x512
  slices_S16x9x514x514_S16x1x512x512_0_4_1_1 : S16x9x514x514.Slices ![0, 4, 1, 1] S16x1x512x512
  slices_S16x9x514x514_S16x1x512x512_0_5_1_0 : S16x9x514x514.Slices ![0, 5, 1, 0] S16x1x512x512
  slices_S16x9x514x514_S16x1x512x512_0_6_0_2 : S16x9x514x514.Slices ![0, 6, 0, 2] S16x1x512x512
  slices_S16x9x514x514_S16x1x512x512_0_7_0_1 : S16x9x514x514.Slices ![0, 7, 0, 1] S16x1x512x512
  slices_S16x9x514x514_S16x1x512x512_0_8_0_0 : S16x9x514x514.Slices ![0, 8, 0, 0] S16x1x512x512
  bcast_S16x512x512_S16x1x512x512_0_2_3 : S16x512x512.BroadcastsInDim S16x1x512x512 (![0, 2, 3] : Fin 3 → Fin S16x1x512x512.rank)

variable [Facts₀]

class Facts : Prop extends Facts₀ where

variable [Facts]
-- ==== Proof.Bordered.lean ====
/-
  The fold (col2im with a 3×3 identity kernel, stride 1, padding 1) as ONE function of the argument array.

  Every tap of the fold is an entry of one channel plane read at a position shifted by at most one row and one
  column, and is zero when the shifted position leaves the plane. Both programs realise "zero outside" without any
  arithmetic on the entry — one by a border of zeros around the plane, the other by choosing between the shifted entry
  and zero — so a tap is best written in the coordinates of the plane with its border: `bord X r c`, `0 ≤ r, c ≤ 513`,
  is the plane's entry (r − 1, c − 1) when 1 ≤ r, c ≤ 512 and zero on the border. In these coordinates tap (i, j) of
  output pixel (p, q) is channel 3·i + j at (p + 2 − i, q + 2 − j).

  `G` adds the nine taps in the order channel 0, 1, …, 8 onto a leading zero. Another order or grouping of the same
  nine extended reals has the same sum (`nine_regroup`): addition of extended reals is commutative and associative
  with neutral zero, at the infinities too, so no finiteness is used.
-/
import Idealize.ShloMosaic.Lib.ValueIdx
import Idealize.ShloMosaic.PureOps.Ideal.Laws

noncomputable section

namespace Cert.Fold

open Idealize.ShloMosaic Idealize.ShloMosaic.ValueIdx

/-- One channel plane. -/
abbrev Plane : Shape := ⟨2, ![512, 512]⟩
/-- The argument: 16 images of 9 channel planes. -/
abbrev Arg : Shape := ⟨4, ![16, 9, 512, 512]⟩
/-- The result: 16 images of one plane. -/
abbrev Res : Shape := ⟨4, ![16, 1, 512, 512]⟩

/-- A plane read with a border of zeros, in the coordinates 0 … 513 of the bordered plane. -/
def bord (X : Plane.Idx → EReal) (r c : ℕ) : EReal :=
  if h : (1 ≤ r ∧ r < 513) ∧ (1 ≤ c ∧ c < 513) then X (ix2 ⟨r - 1, by omega⟩ ⟨c - 1, by omega⟩) else 0

/-- Off the border it is the plane. -/
theorem bord_inside (X : Plane.Idx → EReal) (p q : Fin 512) : bord X (p.val + 1) (q.val + 1) = X (ix2 p q) := by
  have hp := p.isLt
  have hq := q.isLt
  unfold bord
  rw [dif_pos (show (1 ≤ p.val + 1 ∧ p.val + 1 < 513) ∧ (1 ≤ q.val + 1 ∧ q.val + 1 < 513) by omega)]
  simp only [Nat.add_sub_cancel, Fin.eta]

/-- On the border it is zero. -/
theorem bord_outside (X : Plane.Idx → EReal) (r c : ℕ) (h : r = 0 ∨ 513 ≤ r ∨ c = 0 ∨ 513 ≤ c) : bord X r c = 0 := by
  unfold bord
  rw [dif_neg (by omega)]

/-- The argument array read with a border of zeros around every channel plane: image `b`, channel `ch`, bordered
    coordinates (r, c). -/
def Z (x : Arg.Idx → EReal) (b ch r c : ℕ) : EReal :=
  if h : (b < 16 ∧ ch < 9) ∧ (1 ≤ r ∧ r < 513) ∧ (1 ≤ c ∧ c < 513) then
    x (ix4 ⟨b, h.1.1⟩ ⟨ch, h.1.2⟩ ⟨r - 1, by omega⟩ ⟨c - 1, by omega⟩) else 0

/-- A plane that is channel `ch` of image `b`, read with its border, is the argument read with its border. -/
theorem bord_eq_Z (x : Arg.Idx → EReal) (b : Fin 16) (ch : Fin 9) (X : Plane.Idx → EReal)
    (hX : ∀ p q : Fin 512, X (ix2 p q) = x (ix4 b ch p q)) (r c : ℕ) : bord X r c = Z x b.val ch.val r c := by
  unfold bord Z
  by_cases h : (1 ≤ r ∧ r < 513) ∧ (1 ≤ c ∧ c < 513)
  · rw [dif_pos h, dif_pos ⟨⟨b.isLt, ch.isLt⟩, h⟩]
    exact hX _ _
  · rw [dif_neg h, dif_neg (fun h' => h h'.2)]

/-- THE FOLD: output pixel (p, q) of image b is the sum, onto zero, of channel 3·i + j at bordered coordinates
    (p + 2 − i, q + 2 − j), for i, j = 0, 1, 2 in this order. -/
def G (x : Arg.Idx → EReal) : Res.Idx → EReal := fun i =>
  0 + Z x (i 0).val 0 ((i 2).val + 2) ((i 3).val + 2) + Z x (i 0).val 1 ((i 2).val + 2) ((i 3).val + 1)
    + Z x (i 0).val 2 ((i 2).val + 2) (i 3).val + Z x (i 0).val 3 ((i 2).val + 1) ((i 3).val + 2)
    + Z x (i 0).val 4 ((i 2).val + 1) ((i 3).val + 1) + Z x (i 0).val 5 ((i 2).val + 1) (i 3).val
    + Z x (i 0).val 6 (i 2).val ((i 3).val + 2) + Z x (i 0).val 7 (i 2).val ((i 3).val + 1)
    + Z x (i 0).val 8 (i 2).val (i 3).val

/-- Nine extended reals added column of taps by column of taps (channels 0, 3, 6, then 1, 4, 7, then 2, 5, 8) have the
    sum they have added in the order 0, …, 8 onto zero. -/
theorem nine_regroup (a0 a1 a2 a3 a4 a5 a6 a7 a8 : EReal) :
    (((a0 + a3) + a6) + ((a1 + a4) + a7)) + ((a2 + a5) + a8) = 0 + a0 + a1 + a2 + a3 + a4 + a5 + a6 + a7 + a8 := by
  rw [zero_add]
  ac_rfl

end Cert.Fold

end
-- ==== Proof.MaskedShift.lean ====
/-
  A plane shifted by one row or one column, zeros entering at the edge, as a vector unit does it: the plane is
  rotated by one position around the end — by 1, or by 511 = −1 modulo 512 — and the rotated entry is kept only where
  the position did not wrap around, zero being chosen on the one row (or column) where it did. The mask that says
  where is a comparison of the position's own row (or column) number with 1 or with 511.

  Read at pixel (p, q) in the coordinates of the plane with a border of zeros (`bord`), the four shifts are the
  plane at (p + 2, q + 1), (p, q + 1), (p + 1, q + 2) and (p + 1, q): the wrapped row or column is exactly the one
  whose shifted position is on the border. A sum of three row-shifted planes, shifted along the columns, is the sum
  of the three planes each shifted both ways (`bord_col_sum`): on the border all four are zero, and 0 = 0 + 0 + 0.
-/
import proofs.«155507_j55791625175251_2_alg».proof.Proof.Bordered
import Idealize.ShloMosaic.Lib.KernelVsHost

noncomputable section

namespace Cert.Fold

open Idealize.ShloMosaic Idealize.ShloMosaic.ValueIdx

/-! ## Small words read as numbers -/

/-- A number below 2³¹ is the signed value of its 32-bit word. -/
theorem toInt_small (a : Nat) (ha : a < 2 ^ 31) : (BitVec.ofNat 32 a).toInt = (a : Int) := by
  rw [BitVec.toInt_eq_toNat_cond, BitVec.toNat_ofNat, Nat.mod_eq_of_lt (by omega)]
  split <;> omega

/-- Signed "less than" of two such words compares the numbers. -/
theorem slt_small (a b : Nat) (ha : a < 2 ^ 31) (hb : b < 2 ^ 31) :
    (BitVec.ofNat 32 a).slt (BitVec.ofNat 32 b) = decide (a < b) := by
  unfold BitVec.slt
  rw [toInt_small a ha, toInt_small b hb]
  simp

/-- Signed "at most" of two such words compares the numbers. -/
theorem sle_small (a b : Nat) (ha : a < 2 ^ 31) (hb : b < 2 ^ 31) :
    (BitVec.ofNat 32 a).sle (BitVec.ofNat 32 b) = decide (a ≤ b) := by
  unfold BitVec.sle
  rw [toInt_small a ha, toInt_small b hb]
  simp

/-! ## The four masks at a pixel -/

/-- "row < 511". -/
theorem mask_row_lt (h : Plane.Iotas .tc 32 [0]) (p q : Fin 512) :
    cmpi .slt (iota .tc Plane 32 [0] h) (broadcast Plane 511#32) (ix2 p q) = if p.val < 511 then 1#1 else 0#1 := by
  have hp := p.isLt
  show IntOp.cmpi .slt (iota .tc Plane 32 [0] h (ix2 p q)) 511#32 = _
  rw [iota_single_apply]
  show BitVec.ofBool ((BitVec.ofNat 32 p.val).slt (BitVec.ofNat 32 511)) = _
  rw [slt_small _ _ (by omega) (by norm_num)]
  by_cases hlt : p.val < 511
  · rw [if_pos hlt, decide_eq_true hlt]; rfl
  · rw [if_neg hlt, decide_eq_false hlt]; rfl

/-- "row ≥ 1". -/
theorem mask_row_ge (h : Plane.Iotas .tc 32 [0]) (p q : Fin 512) :
    cmpi .sge (iota .tc Plane 32 [0] h) (broadcast Plane 1#32) (ix2 p q) = if 1 ≤ p.val then 1#1 else 0#1 := by
  have hp := p.isLt
  show IntOp.cmpi .sge (iota .tc Plane 32 [0] h (ix2 p q)) 1#32 = _
  rw [iota_single_apply]
  show BitVec.ofBool ((BitVec.ofNat 32 1).sle (BitVec.ofNat 32 p.val)) = _
  rw [sle_small _ _ (by norm_num) (by omega)]
  by_cases hle : 1 ≤ p.val
  · rw [if_pos hle, decide_eq_true hle]; rfl
  · rw [if_neg hle, decide_eq_false hle]; rfl

/-- "column < 511". -/
theorem mask_col_lt (h : Plane.Iotas .tc 32 [1]) (p q : Fin 512) :
    cmpi .slt (iota .tc Plane 32 [1] h) (broadcast Plane 511#32) (ix2 p q) = if q.val < 511 then 1#1 else 0#1 := by
  have hq := q.isLt
  show IntOp.cmpi .slt (iota .tc Plane 32 [1] h (ix2 p q)) 511#32 = _
  rw [iota_single_apply]
  show BitVec.ofBool ((BitVec.ofNat 32 q.val).slt (BitVec.ofNat 32 511)) = _
  rw [slt_small _ _ (by omega) (by norm_num)]
  by_cases hlt : q.val < 511
  · rw [if_pos hlt, decide_eq_true hlt]; rfl
  · rw [if_neg hlt, decide_eq_false hlt]; rfl

/-- "column ≥ 1". -/
theorem mask_col_ge (h : Plane.Iotas .tc 32 [1]) (p q : Fin 512) :
    cmpi .sge (iota .tc Plane 32 [1] h) (broadcast Plane 1#32) (ix2 p q) = if 1 ≤ q.val then 1#1 else 0#1 := by
  have hq := q.isLt
  show IntOp.cmpi .sge (iota .tc Plane 32 [1] h (ix2 p q)) 1#32 = _
  rw [iota_single_apply]
  show BitVec.ofBool ((BitVec.ofNat 32 1).sle (BitVec.ofNat 32 q.val)) = _
  rw [sle_small _ _ (by norm_num) (by omega)]
  by_cases hle : 1 ≤ q.val
  · rw [if_pos hle, decide_eq_true hle]; rfl
  · rw [if_neg hle, decide_eq_false hle]; rfl

/-! ## A rotation at a pixel -/

variable {α : Type}

/-- A plane rotated along its rows by `n`, at (p, q), is the plane at row p − n around the end. -/
theorem rotate_row (n : BitVec 32) (X : Plane.Idx → α) (h : Plane.Rotates 0 none) (p q p' : Fin 512)
    (hp' : p'.val = (p.val + 512 - n.toNat % 512) % 512) :
    dynamicRotate 0 n none X h (ix2 p q) = X (ix2 p' q) := by
  refine dynamicRotate_apply 0 n X h (ix2 p q) (ix2 p' q) ?_
  intro b
  by_cases hb : b = 0
  · subst hb
    rw [if_pos rfl]
    exact hp'
  · rw [if_neg hb]
    have hb2 : b.val < 2 := b.isLt
    have hb1 : b = 1 := Fin.ext (by
      have : b.val ≠ 0 := fun e => hb (Fin.ext e)
      show b.val = 1
      omega)
    subst hb1
    rfl

/-- A plane rotated along its columns by `n`, at (p, q), is the plane at column q − n around the end. -/
theorem rotate_col (n : BitVec 32) (X : Plane.Idx → α) (h : Plane.Rotates 1 none) (p q q' : Fin 512)
    (hq' : q'.val = (q.val + 512 - n.toNat % 512) % 512) :
    dynamicRotate 1 n none X h (ix2 p q) = X (ix2 p q') := by
  refine dynamicRotate_apply 1 n X h (ix2 p q) (ix2 p q') ?_
  intro b
  by_cases hb : b = 1
  · subst hb
    rw [if_pos rfl]
    exact hq'
  · rw [if_neg hb]
    have hb2 : b.val < 2 := b.isLt
    have hb0 : b = 0 := Fin.ext (by
      have : b.val ≠ 1 := fun e => hb (Fin.ext e)
      show b.val = 0
      omega)
    subst hb0
    rfl

/-! ## The four masked shifts, in the coordinates of the bordered plane -/

/-- Row p + 1 moved to row p, zero in the last row. -/
theorem next_row (hi : Plane.Iotas .tc 32 [0]) (hr : Plane.Rotates 0 none) (X : Plane.Idx → EReal) (z : EReal) (hz : z = 0)
    (p q : Fin 512) :
    select (cmpi .slt (iota .tc Plane 32 [0] hi) (broadcast Plane 511#32)) (dynamicRotate 0 511#32 none X hr)
      (broadcast Plane z) (ix2 p q) = bord X (p.val + 2) (q.val + 1) := by
  have hp := p.isLt
  have hq := q.isLt
  rw [select_apply, mask_row_lt]
  by_cases hlt : p.val < 511
  · rw [if_pos hlt, select_one, rotate_row 511#32 X hr p q ⟨p.val + 1, by omega⟩
      (by show p.val + 1 = (p.val + 512 - 511 % 512) % 512; omega)]
    exact (bord_inside X ⟨p.val + 1, by omega⟩ q).symm
  · rw [if_neg hlt, select_zero, bord_outside X _ _ (by omega)]
    exact hz

/-- Row p − 1 moved to row p, zero in the first row. -/
theorem prev_row (hi : Plane.Iotas .tc 32 [0]) (hr : Plane.Rotates 0 none) (X : Plane.Idx → EReal) (z : EReal) (hz : z = 0)
    (p q : Fin 512) :
    select (cmpi .sge (iota .tc Plane 32 [0] hi) (broadcast Plane 1#32)) (dynamicRotate 0 1#32 none X hr)
      (broadcast Plane z) (ix2 p q) = bord X p.val (q.val + 1) := by
  have hp := p.isLt
  have hq := q.isLt
  rw [select_apply, mask_row_ge]
  by_cases hle : 1 ≤ p.val
  · rw [if_pos hle, select_one, rotate_row 1#32 X hr p q ⟨p.val - 1, by omega⟩
      (by show p.val - 1 = (p.val + 512 - 1 % 512) % 512; omega)]
    have e := bord_inside X ⟨p.val - 1, by omega⟩ q
    rw [show (⟨p.val - 1, by omega⟩ : Fin 512).val + 1 = p.val from by show p.val - 1 + 1 = p.val; omega] at e
    exact e.symm
  · rw [if_neg hle, select_zero, bord_outside X _ _ (by omega)]
    exact hz

/-- Column q + 1 moved to column q, zero in the last column. -/
theorem next_col (hi : Plane.Iotas .tc 32 [1]) (hr : Plane.Rotates 1 none) (X : Plane.Idx → EReal) (z : EReal) (hz : z = 0)
    (p q : Fin 512) :
    select (cmpi .slt (iota .tc Plane 32 [1] hi) (broadcast Plane 511#32)) (dynamicRotate 1 511#32 none X hr)
      (broadcast Plane z) (ix2 p q) = bord X (p.val + 1) (q.val + 2) := by
  have hp := p.isLt
  have hq := q.isLt
  rw [select_apply, mask_col_lt]
  by_cases hlt : q.val < 511
  · rw [if_pos hlt, select_one, rotate_col 511#32 X hr p q ⟨q.val + 1, by omega⟩
      (by show q.val + 1 = (q.val + 512 - 511 % 512) % 512; omega)]
    exact (bord_inside X p ⟨q.val + 1, by omega⟩).symm
  · rw [if_neg hlt, select_zero, bord_outside X _ _ (by omega)]
    exact hz

/-- Column q − 1 moved to column q, zero in the first column. -/
theorem prev_col (hi : Plane.Iotas .tc 32 [1]) (hr : Plane.Rotates 1 none) (X : Plane.Idx → EReal) (z : EReal) (hz : z = 0)
    (p q : Fin 512) :
    select (cmpi .sge (iota .tc Plane 32 [1] hi) (broadcast Plane 1#32)) (dynamicRotate 1 1#32 none X hr)
      (broadcast Plane z) (ix2 p q) = bord X (p.val + 1) q.val := by
  have hp := p.isLt
  have hq := q.isLt
  rw [select_apply, mask_col_ge]
  by_cases hle : 1 ≤ q.val
  · rw [if_pos hle, select_one, rotate_col 1#32 X hr p q ⟨q.val - 1, by omega⟩
      (by show q.val - 1 = (q.val + 512 - 1 % 512) % 512; omega)]
    have e := bord_inside X p ⟨q.val - 1, by omega⟩
    rw [show (⟨q.val - 1, by omega⟩ : Fin 512).val + 1 = q.val from by show q.val - 1 + 1 = q.val; omega] at e
    exact e.symm
  · rw [if_neg hle, select_zero, bord_outside X _ _ (by omega)]
    exact hz

/-! ## A column of three taps, shifted along the columns -/

/-- A plane that is, pixel by pixel, the sum of three planes shifted along the rows (by −1, 0, +1), read with its
    border at row p + 1 and ANY bordered column c, is the sum of the three planes at that column: off the border by
    the hypothesis, on it because every summand is on the border too. -/
theorem bord_col_sum (T A B C : Plane.Idx → EReal)
    (hT : ∀ p q : Fin 512, T (ix2 p q) = (bord A (p.val + 2) (q.val + 1) + bord B (p.val + 1) (q.val + 1)) + bord C p.val (q.val + 1))
    (p : Fin 512) (c : ℕ) :
    bord T (p.val + 1) c = (bord A (p.val + 2) c + bord B (p.val + 1) c) + bord C p.val c := by
  by_cases hc : 1 ≤ c ∧ c < 513
  · obtain ⟨q, rfl⟩ : ∃ q : Fin 512, c = q.val + 1 := ⟨⟨c - 1, by omega⟩, by show c = c - 1 + 1; omega⟩
    rw [bord_inside, hT]
  · rw [bord_outside T _ _ (by omega), bord_outside A _ _ (by omega), bord_outside B _ _ (by omega),
      bord_outside C _ _ (by omega)]
    simp

end Cert.Fold

end
-- ==== Proof.KernelFold.lean ====
/-
  What the kernel's body leaves in its output block, pixel by pixel, from the nine channel blocks it loads.

  The body loads the nine channels of one image as blocks [1, 1, 512, 512], views each as a plane, and works in two
  stages. Stage one builds, for each column j of taps, the plane `colsum` of the channels j, 3 + j, 6 + j shifted
  along the rows by −1, 0, +1 (zeros entering at the edge) and added. Stage two shifts column 0's plane and column 2's
  plane along the columns by −1 and +1 (zeros entering again) and adds the three. In the coordinates of a plane with a
  border of zeros every one of these shifts is a change of the coordinates by one (MaskedShift), and a column shift of
  a `colsum` is the `colsum` of the shifted planes (`bord_col_sum`), so pixel (p, q) of the result is the nine
  bordered reads, grouped column of taps by column of taps.
-/
import proofs.«155507_j55791625175251_2_alg».proof.Proof.MaskedShift
import proofs.«155507_j55791625175251_2_alg».proof.Proof.Gen.KernelIdeal.Value

noncomputable section

namespace Cert.Fold

open Idealize.ShloMosaic Idealize.ShloMosaic.ValueIdx Cert.KernelIdeal Cert.KernelIdeal.Gen

/-- One loaded channel block [1, 1, 512, 512] viewed as a plane. -/
abbrev pl (P : Vec Ideal S1x1x512x512 .f32) : Plane.Idx → EReal :=
  shapeCast S512x512 P shapeCasts_S1x1x512x512_S512x512

/-- The view keeps the row and the column. -/
theorem pl_apply (P : Vec Ideal S1x1x512x512 .f32) (p q : Fin 512) :
    pl P (ix2 p q) = P (ix4 (0 : Fin 1) (0 : Fin 1) p q) :=
  shapeCast_apply P _ (ix2 p q) (ix4 (0 : Fin 1) (0 : Fin 1) p q) (by
    rw [Shape.rowMajor_val_four, Shape.rowMajor_val_two]
    show ((0 * 1 + 0) * 512 + p.val) * 512 + q.val = p.val * 512 + q.val
    omega)

/-- The float the body chooses where a shift wrapped around is zero. -/
theorem zero_word : (Scalar.ofBits .f32 0x00000000#32 : Ideal .f32) = 0 := Ideal.ofBits_zero_f32

/-- ONE COLUMN OF TAPS: plane `A` moved up one row, plane `B` as it is, plane `C` moved down one row, added in this
    order. -/
def colsum (A B C : Plane.Idx → EReal) : Plane.Idx → EReal := fun j =>
  (select k0_pay3 (dynamicRotate 0 511#32 none A rotates_S512x512_d0)
      (broadcast S512x512 (Scalar.ofBits (F := Ideal) .f32 0x00000000#32)) j + B j)
    + select k0_pay2 (dynamicRotate 0 1#32 none C rotates_S512x512_d0)
      (broadcast S512x512 (Scalar.ofBits (F := Ideal) .f32 0x00000000#32)) j

/-- At pixel (p, q) it is the three planes read with their borders at rows p + 2, p + 1, p of bordered column q + 1. -/
theorem colsum_apply (A B C : Plane.Idx → EReal) (p q : Fin 512) :
    colsum A B C (ix2 p q)
      = (bord A (p.val + 2) (q.val + 1) + bord B (p.val + 1) (q.val + 1)) + bord C p.val (q.val + 1) :=
  congrArg₂ (· + ·)
    (congrArg₂ (· + ·) (next_row iota_S512x512_d0_w32 rotates_S512x512_d0 A _ zero_word p q) (bord_inside B p q).symm)
    (prev_row iota_S512x512_d0_w32 rotates_S512x512_d0 C _ zero_word p q)

/-- Stage one's first plane is the column of taps of the channels loaded first, second and third. -/
theorem pay6_eq (P0 P1 P2 : Vec Ideal S1x1x512x512 .f32) :
    k0_pay6 (F := Ideal) P0 P1 P2 = colsum (pl P0) (pl P1) (pl P2) := rfl

/-- THE BODY'S RESULT PLANE at pixel (p, q): nine bordered reads, the loads in the body's order (channels 0, 3, 6, 1, 4,
    7, 2, 5, 8), grouped column of taps by column of taps. -/
theorem out_plane (P0 P1 P2 P3 P4 P5 P6 P7 P8 : Vec Ideal S1x1x512x512 .f32) (p q : Fin 512) :
    k0_pay8 (F := Ideal) k0_pay2 k0_pay3 k0_pay4 k0_pay5 (k0_pay6 P0 P1 P2) (k0_pay7 P3) P4 P5 P6 P7 P8 (ix2 p q)
      = (((bord (pl P0) (p.val + 2) (q.val + 2) + bord (pl P1) (p.val + 1) (q.val + 2)) + bord (pl P2) p.val (q.val + 2))
          + ((bord (pl P3) (p.val + 2) (q.val + 1) + bord (pl P4) (p.val + 1) (q.val + 1)) + bord (pl P5) p.val (q.val + 1)))
        + ((bord (pl P6) (p.val + 2) q.val + bord (pl P7) (p.val + 1) q.val) + bord (pl P8) p.val q.val) := by
  have e : k0_pay8 (F := Ideal) k0_pay2 k0_pay3 k0_pay4 k0_pay5 (k0_pay6 P0 P1 P2) (k0_pay7 P3) P4 P5 P6 P7 P8 (ix2 p q)
      = (bord (colsum (pl P0) (pl P1) (pl P2)) (p.val + 1) (q.val + 2)
          + ((bord (pl P3) (p.val + 2) (q.val + 1) + bord (pl P4) (p.val + 1) (q.val + 1)) + bord (pl P5) p.val (q.val + 1)))
        + bord (colsum (pl P6) (pl P7) (pl P8)) (p.val + 1) q.val :=
    congrArg₂ (· + ·)
      (congrArg₂ (· + ·)
        (next_col iota_S512x512_d1_w32 rotates_S512x512_d1 (colsum (pl P0) (pl P1) (pl P2)) _ zero_word p q)
        (congrArg₂ (· + ·)
          (congrArg₂ (· + ·) (next_row iota_S512x512_d0_w32 rotates_S512x512_d0 (pl P3) _ zero_word p q)
            (bord_inside (pl P4) p q).symm)
          (prev_row iota_S512x512_d0_w32 rotates_S512x512_d0 (pl P5) _ zero_word p q)))
      (prev_col iota_S512x512_d1_w32 rotates_S512x512_d1 (colsum (pl P6) (pl P7) (pl P8)) _ zero_word p q)
  rw [e, bord_col_sum _ _ _ _ (colsum_apply (pl P0) (pl P1) (pl P2)) p,
    bord_col_sum _ _ _ _ (colsum_apply (pl P6) (pl P7) (pl P8)) p]

/-- THE OUTPUT BLOCK at its index (·, ·, p, q): the result plane there (the block is the plane with two unit axes put
    in front). -/
theorem block_apply (P0 P1 P2 P3 P4 P5 P6 P7 P8 : Vec Ideal S1x1x512x512 .f32) (a b : Fin 1) (p q : Fin 512) :
    Cert.KernelIdeal.Value.E1 (F := Ideal) P0 P1 P2 P3 P4 P5 P6 P7 P8 (ix4 a b p q)
      = (((bord (pl P0) (p.val + 2) (q.val + 2) + bord (pl P1) (p.val + 1) (q.val + 2)) + bord (pl P2) p.val (q.val + 2))
          + ((bord (pl P3) (p.val + 2) (q.val + 1) + bord (pl P4) (p.val + 1) (q.val + 1)) + bord (pl P5) p.val (q.val + 1)))
        + ((bord (pl P6) (p.val + 2) q.val + bord (pl P7) (p.val + 1) q.val) + bord (pl P8) p.val q.val) := by
  have e : Cert.KernelIdeal.Value.ix1_0 (ix4 a b p q) = ix2 p q :=
    funext fun d => match d with | ⟨0, _⟩ => rfl | ⟨1, _⟩ => rfl
  show k0_pay8 (F := Ideal) k0_pay2 k0_pay3 k0_pay4 k0_pay5 (k0_pay6 P0 P1 P2) (k0_pay7 P3) P4 P5 P6 P7 P8
      (Cert.KernelIdeal.Value.ix1_0 (ix4 a b p q)) = _
  rw [e]
  exact out_plane P0 P1 P2 P3 P4 P5 P6 P7 P8 p q

/-- The plane loaded from channel `ch` of a staged block [1, 9, 512, 512] is that channel of the block. -/
theorem ld_plane (x0 : Vec Ideal S1x9x512x512 .f32) (ch : Fin 9)
    (inb : ∀ a, (![0, ch.val, 0, 0] : Fin 4 → Nat) a + S1x1x512x512.size a ≤ S1x9x512x512.size a) (p q : Fin 512) :
    pl (View.ld x0 (Rect.unit (s := S1x9x512x512) ![0, ch.val, 0, 0] S1x1x512x512.size inb)) (ix2 p q)
      = x0 (ix4 (0 : Fin 1) ch p q) := by
  rw [pl_apply]
  show x0 ((Rect.unit (s := S1x9x512x512) ![0, ch.val, 0, 0] S1x1x512x512.size inb).emb (ix4 (0 : Fin 1) (0 : Fin 1) p q)) = _
  refine congrArg x0 (funext fun d => Fin.ext ?_)
  match d with
  | ⟨0, _⟩ => show 0 + 1 * 0 = 0; omega
  | ⟨1, _⟩ => show ch.val + 1 * 0 = ch.val; omega
  | ⟨2, _⟩ => show 0 + 1 * p.val = p.val; omega
  | ⟨3, _⟩ => show 0 + 1 * q.val = q.val; omega

/-- THE OUTPUT BLOCK IS A BLOCK OF THE FOLD: when the staged block is image `b` of an array `x`, the block the body
    leaves holds, at (·, ·, p, q), the fold of `x` at (b, 0, p, q) — its nine bordered reads are reads of `x` with its
    border, and regrouped they are `G`'s sum. -/
theorem block_fold (x0 : Vec Ideal S1x9x512x512 .f32) (x : Arg.Idx → EReal) (b : Fin 16)
    (hx : ∀ (ch : Fin 9) (p q : Fin 512), x0 (ix4 (0 : Fin 1) ch p q) = x (ix4 b ch p q))
    (a a' : Fin 1) (p q : Fin 512) :
    out0_1 x0 (ix4 a a' p q) = G x (ix4 b (0 : Fin 1) p q) := by
  have z0 : ∀ r k, bord (pl (View.ld x0 r0_0)) r k = Z x b.val 0 r k :=
    bord_eq_Z x b 0 _ (fun p q => (ld_plane x0 0 _ p q).trans (hx 0 p q))
  have z3 : ∀ r k, bord (pl (View.ld x0 r0_1)) r k = Z x b.val 3 r k :=
    bord_eq_Z x b 3 _ (fun p q => (ld_plane x0 3 _ p q).trans (hx 3 p q))
  have z6 : ∀ r k, bord (pl (View.ld x0 r0_2)) r k = Z x b.val 6 r k :=
    bord_eq_Z x b 6 _ (fun p q => (ld_plane x0 6 _ p q).trans (hx 6 p q))
  have z1 : ∀ r k, bord (pl (View.ld x0 r0_3)) r k = Z x b.val 1 r k :=
    bord_eq_Z x b 1 _ (fun p q => (ld_plane x0 1 _ p q).trans (hx 1 p q))
  have z4 : ∀ r k, bord (pl (View.ld x0 r0_4)) r k = Z x b.val 4 r k :=
    bord_eq_Z x b 4 _ (fun p q => (ld_plane x0 4 _ p q).trans (hx 4 p q))
  have z7 : ∀ r k, bord (pl (View.ld x0 r0_5)) r k = Z x b.val 7 r k :=
    bord_eq_Z x b 7 _ (fun p q => (ld_plane x0 7 _ p q).trans (hx 7 p q))
  have z2 : ∀ r k, bord (pl (View.ld x0 r0_6)) r k = Z x b.val 2 r k :=
    bord_eq_Z x b 2 _ (fun p q => (ld_plane x0 2 _ p q).trans (hx 2 p q))
  have z5 : ∀ r k, bord (pl (View.ld x0 r0_7)) r k = Z x b.val 5 r k :=
    bord_eq_Z x b 5 _ (fun p q => (ld_plane x0 5 _ p q).trans (hx 5 p q))
  have z8 : ∀ r k, bord (pl (View.ld x0 r0_8)) r k = Z x b.val 8 r k :=
    bord_eq_Z x b 8 _ (fun p q => (ld_plane x0 8 _ p q).trans (hx 8 p q))
  unfold out0_1
  rw [Cert.KernelIdeal.Value.canon1_eq, block_apply, z0, z1, z2, z3, z4, z5, z6, z7, z8]
  exact nine_regroup _ _ _ _ _ _ _ _ _

end Cert.Fold

end
-- ==== Proof.KernelArray.lean ====
/-
  From the kernel's output blocks to its output array.

  The grid has one point per image: point t stages image t of the argument whole (all nine channel planes) and writes
  back image t of the result whole, so block t of either array is the array's slab at first coordinate t. The block
  the body leaves at point t (KernelFold) reads its nine planes out of image t of the argument, and its nine
  bordered reads, regrouped, are the fold `G` of the argument at the pixel's place in image t (`flushed_eq`). The
  sixteen blocks tile the result array (`cover`), so after the run the array is `G` of the argument everywhere.
-/
import proofs.«155507_j55791625175251_2_alg».proof.Proof.KernelFold

set_option maxRecDepth 16384

noncomputable section

namespace Cert.Fold

open Idealize.ShloMosaic Idealize.ShloMosaic.ValueIdx Idealize.ShloMosaic.TcCoe Idealize.SL.Sem
open Cert.KernelIdeal Cert.KernelIdeal.Gen
open Idealize.ShloMosaic.Pipeline (Dat)

variable (m : (ℓ : Loc nD τ sig) → Buf (Elt Ideal) ℓ) (ρ : Dev nD → PrngReg)

/-- Both windows' block index at grid point t is (t, 0, 0, 0), decided over the sixteen points. -/
theorem idx_facts : ∀ t : Fin cfg0.N,
    win0_0.index t (0 : Fin 4) = t.val ∧ win0_0.index t (1 : Fin 4) = 0 ∧ win0_0.index t (2 : Fin 4) = 0
    ∧ win0_0.index t (3 : Fin 4) = 0
    ∧ win0_1.index t (0 : Fin 4) = t.val ∧ win0_1.index t (1 : Fin 4) = 0 ∧ win0_1.index t (2 : Fin 4) = 0
    ∧ win0_1.index t (3 : Fin 4) = 0 :=
  (by decide +kernel : ∀ t : Fin grid0.N, _)

/-- The image grid point t works on. -/
abbrev img (t : Fin cfg0.N) : Fin 16 := ⟨t.val, lt_of_lt_of_eq t.isLt N_0⟩

/-- THE STAGED BLOCK at point t is image t of the argument. -/
theorem in_blk (c : Dev nD) (t : Fin cfg0.N) (ch : Fin 9) (p q : Fin 512) :
    iblk m c 0 t (ix4 (0 : Fin 1) ch p q) = V m c main_arg0 (ix4 (img t) ch p q) := by
  obtain ⟨e0, e1, e2, e3, -⟩ := idx_facts t
  show V m c main_arg0 (((cfg0.win 0).blk t).view.emb (ix4 (0 : Fin 1) ch p q)) = _
  refine congrArg _ (funext fun d => Fin.ext ?_)
  match d with
  | ⟨0, _⟩ => show win0_0.index t (0 : Fin 4) * 1 + 1 * 0 = t.val; omega
  | ⟨1, _⟩ => show win0_0.index t (1 : Fin 4) * 9 + 1 * ch.val = ch.val; omega
  | ⟨2, _⟩ => show win0_0.index t (2 : Fin 4) * 512 + 1 * p.val = p.val; omega
  | ⟨3, _⟩ => show win0_0.index t (3 : Fin 4) * 512 + 1 * q.val = q.val; omega

/-- Index (·, ·, p, q) of the output block at point t is index (t, 0, p, q) of the result array. -/
theorem out_emb (t : Fin cfg0.N) (a b : Fin 1) (p q : Fin 512) :
    (((cfg0.win 1).blk t).view.emb (ix4 a b p q) : Res.Idx) = ix4 (img t) (0 : Fin 1) p q := by
  obtain ⟨-, -, -, -, e0, e1, e2, e3⟩ := idx_facts t
  have ha := a.isLt
  have hb := b.isLt
  refine funext fun d => Fin.ext ?_
  match d with
  | ⟨0, _⟩ => show win0_1.index t (0 : Fin 4) * 1 + 1 * a.val = t.val; omega
  | ⟨1, _⟩ => show win0_1.index t (1 : Fin 4) * 1 + 1 * b.val = 0; omega
  | ⟨2, _⟩ => show win0_1.index t (2 : Fin 4) * 512 + 1 * p.val = p.val; omega
  | ⟨3, _⟩ => show win0_1.index t (3 : Fin 4) * 512 + 1 * q.val = q.val; omega

/-- WHAT POINT t WRITES BACK is block t of the fold of the argument array as the region finds it. -/
theorem flushed_eq (c : Dev nD) (t : Fin cfg0.N) :
    (dats m 0 c).flushed 1 t = ((cfg0.win 1).blk t).view.read (Elt Ideal) (G (V m c main_arg0)) := by
  rw [Cert.KernelIdeal.Value.flushed1]
  funext y
  show out0_1 (iblk m c 0 t) y = G (V m c main_arg0) (((cfg0.win 1).blk t).view.emb y)
  obtain ⟨a, b, p, q, rfl⟩ : ∃ (a b : Fin 1) (p q : Fin 512), (y : S1x1x512x512.Idx) = ix4 a b p q :=
    ⟨y 0, y 1, y 2, y 3, eq_ix4 y⟩
  rw [out_emb t a b p q]
  exact block_fold (iblk m c 0 t) (V m c main_arg0) (img t) (in_blk m c t) a b p q

/-- An index of the result array whose first coordinate is t lies in the block of grid point t: it is the image of the
    block index made of its last two coordinates. -/
theorem mem_blk_of (t : Fin cfg0.N) (i : Res.Idx) (h : (i 0).val = t.val) :
    i ∈ ((cfg0.win 1).blk t).view.set := by
  have h1 : (i 1).val < 1 := (i 1).isLt
  have e : (((cfg0.win 1).blk t).view.emb (ix4 (0 : Fin 1) (0 : Fin 1) (i 2) (i 3)) : Res.Idx) = i := by
    refine (out_emb t 0 0 (i 2) (i 3)).trans (funext fun d => Fin.ext ?_)
    match d with
    | ⟨0, _⟩ => exact h.symm
    | ⟨1, _⟩ => show 0 = (i 1).val; omega
    | ⟨2, _⟩ => rfl
    | ⟨3, _⟩ => rfl
  have hm := ((cfg0.win 1).blk t).view.emb_mem_set (ix4 (0 : Fin 1) (0 : Fin 1) (i 2) (i 3))
  rw [e] at hm
  exact hm

/-- THE BLOCKS TILE THE RESULT: index (b, ·, p, q) is in the block of grid point b. -/
theorem cover (i : Res.Idx) :
    ∃ t : Fin cfg0.N, (cfg0.win 1).flush t = true ∧ i ∈ ((cfg0.win 1).blk t).view.set :=
  ⟨⟨(i 0).val, lt_of_lt_of_eq (i 0).isLt N_0.symm⟩, flush0_1 _, mem_blk_of _ i rfl⟩

/-- THE RESULT ARRAY after the run is the fold of the argument array. -/
theorem final (c : Dev nD) : (dats m 0 c).arrAt 1 cfg0.N = G (m ((c : Thread nD τ).loc main_arg0)) :=
  (dats m 0 c).arrAt_eq_of_cover 1 (G (V m c main_arg0)) (fun t _ => flushed_eq m c t) cover

/-- THE KERNEL'S RUN: every weakly fair execution terminates with the result array at the fold of the argument array
    and the argument unchanged. -/
theorem run : θ_run defs (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Cert.KernelIdeal.Value.run_blocks m ρ)

end Cert.Fold

end
-- ==== Proof.RefFold.lean ====
/-
  The reference computes the fold `G`.

  It surrounds every channel plane with a border of zeros (a pad by one on each side of the two plane axes, its padding
  value the integer zero converted to a float, which is the float zero), takes for tap (i, j) the 512×512 window of
  channel 3·i + j that starts at bordered coordinates (2 − i, 2 − j), and adds the nine windows, channel 0 first, onto
  an array of zeros. The padded array at an index is the bordered read `Z` (`pad_read`); a window with its unit
  channel axis dropped, at (b, p, q), is `Z` at the window's start plus (p, q) (`tap`); the sum is then `G` term by
  term, and the final broadcast only puts the unit channel axis back.
-/
import proofs.«155507_j55791625175251_2_alg».proof.Proof.Bordered
import proofs.«155507_j55791625175251_2_alg».proof.Proof.Gen.ReferenceIdeal.Read
import Idealize.ShloMosaic.Lib.KernelVsHost

noncomputable section

namespace Cert.Fold

open Idealize.ShloMosaic Idealize.ShloMosaic.ValueIdx Cert.ReferenceIdeal

/-- `Z` depends on its four coordinates only. -/
theorem Z_congr (x : Arg.Idx → EReal) {b b' ch ch' r r' c c' : ℕ} (hb : b = b') (hch : ch = ch') (hr : r = r') (hc : c = c') :
    Z x b ch r c = Z x b' ch' r' c' := by
  subst hb hch hr hc; rfl

/-- THE PADDED ARRAY at an index is the argument read with a border of zeros: inside, the pad reads the argument one
    row and one column back; on the border it reads its padding value, the converted integer zero. -/
theorem pad_read (x : Arg.Idx → EReal) (j : S16x9x514x514.Idx) :
    Read.val_main_v0 (F := Ideal) x j = Z x (j 0).val (j 1).val (j 2).val (j 3).val := by
  have h0 : (j 0).val < 16 := (j 0).isLt
  have h1 : (j 1).val < 9 := (j 1).isLt
  have h2 : (j 2).val < 514 := (j 2).isLt
  have h3 : (j 3).val < 514 := (j 3).isLt
  unfold Read.val_main_v0 Z
  by_cases h : (1 ≤ (j 2).val ∧ (j 2).val < 513) ∧ (1 ≤ (j 3).val ∧ (j 3).val < 513)
  · rw [dif_pos ⟨⟨h0, h1⟩, h⟩]
    refine pad_apply_of_inside _ _ _ x _ _ _ j _ ?_
    intro a
    match a with
    | ⟨0, _⟩ => show (j 0).val = 0 + (j 0).val * (0 + 1); omega
    | ⟨1, _⟩ => show (j 1).val = 0 + (j 1).val * (0 + 1); omega
    | ⟨2, _⟩ => show (j 2).val = 1 + ((j 2).val - 1) * (0 + 1); omega
    | ⟨3, _⟩ => show (j 3).val = 1 + ((j 3).val - 1) * (0 + 1); omega
  · rw [dif_neg (fun h' => h h'.2)]
    have hv : ∀ k : S_.Idx, Read.val_main_call0_v0 (F := Ideal) k = 0 := fun k => sitofp_zero (φ := .f32)
    by_cases h2' : 1 ≤ (j 2).val ∧ (j 2).val < 513
    · -- the row is inside, so the column is on the border
      refine (pad_apply_of_not_inside _ _ _ x _ _ _ j (3 : Fin 4) ?_).trans (hv _)
      show ¬(1 ≤ (j 3).val ∧ ((j 3).val - 1) % (0 + 1) = 0 ∧ ((j 3).val - 1) / (0 + 1) < 512)
      intro ⟨a1, _, a3⟩
      exact h ⟨h2', a1, by omega⟩
    · -- the row is on the border
      refine (pad_apply_of_not_inside _ _ _ x _ _ _ j (2 : Fin 4) ?_).trans (hv _)
      show ¬(1 ≤ (j 2).val ∧ ((j 2).val - 1) % (0 + 1) = 0 ∧ ((j 2).val - 1) / (0 + 1) < 512)
      intro ⟨a1, _, a3⟩
      exact h2' ⟨a1, by omega⟩

/-- ONE TAP: the 512×512 window of channel `ch` of the padded array that starts at bordered coordinates (dr, dc), its
    unit channel axis dropped, read at (b, p, q), is the bordered read at (dr + p, dc + q). -/
theorem tap (x : Arg.Idx → EReal) (ch dr dc : ℕ) (hs : S16x9x514x514.Slices ![0, ch, dr, dc] S16x1x512x512)
    (hc : S16x1x512x512.ShapeCasts S16x512x512) (b : Fin 16) (p q : Fin 512) :
    shapeCast S16x512x512 (extractStridedSlice S16x1x512x512 ![0, ch, dr, dc] (Read.val_main_v0 (F := Ideal) x) hs) hc (ix3 b p q)
      = Z x b.val ch (p.val + dr) (q.val + dc) := by
  have hb := b.isLt
  have hp := p.isLt
  have hq := q.isLt
  have hch : ch + 1 ≤ 9 := hs.2 1
  have hdr : dr + 512 ≤ 514 := hs.2 2
  have hdc : dc + 512 ≤ 514 := hs.2 3
  refine (shapeCast_apply _ hc (ix3 b p q) (ix4 b (0 : Fin 1) p q) (by
    rw [Shape.rowMajor_val_four, Shape.rowMajor_val_three]
    show ((b.val * 1 + 0) * 512 + p.val) * 512 + q.val = (b.val * 512 + p.val) * 512 + q.val
    omega)).trans ?_
  refine (extractStridedSlice_apply ![0, ch, dr, dc] _ hs (ix4 b (0 : Fin 1) p q)
    (ix4 b (⟨ch, by omega⟩ : Fin 9) (⟨dr + p.val, by omega⟩ : Fin 514) (⟨dc + q.val, by omega⟩ : Fin 514)) (fun a =>
      match a with
      | ⟨0, _⟩ => by show b.val = 0 + b.val; omega
      | ⟨1, _⟩ => by show ch = ch + 0; omega
      | ⟨2, _⟩ => by show dr + p.val = dr + p.val; rfl
      | ⟨3, _⟩ => by show dc + q.val = dc + q.val; rfl)).trans ?_
  rw [pad_read]
  exact Z_congr x rfl rfl (by show dr + p.val = p.val + dr; omega) (by show dc + q.val = q.val + dc; omega)

/-- THE REFERENCE'S RESULT, as a function of its argument, is the fold. -/
theorem ref_is_G (x : Arg.Idx → EReal) : Read.val_main_v29 (F := Ideal) x = G x := by
  funext i
  obtain ⟨b, u, p, q, rfl⟩ : ∃ (b : Fin 16) (u : Fin 1) (p q : Fin 512), i = ix4 b u p q := ⟨i 0, i 1, i 2, i 3, eq_ix4 i⟩
  have ej : Read.idx_main_v29 (ix4 b u p q) = ix3 b p q :=
    funext fun a => match a with | ⟨0, _⟩ => rfl | ⟨1, _⟩ => rfl | ⟨2, _⟩ => rfl
  have t0 : Read.val_main_v3 (F := Ideal) x (ix3 b p q) = Z x b.val 0 (p.val + 2) (q.val + 2) := tap x 0 2 2 _ _ b p q
  have t1 : Read.val_main_v6 (F := Ideal) x (ix3 b p q) = Z x b.val 1 (p.val + 2) (q.val + 1) := tap x 1 2 1 _ _ b p q
  have t2 : Read.val_main_v9 (F := Ideal) x (ix3 b p q) = Z x b.val 2 (p.val + 2) (q.val + 0) := tap x 2 2 0 _ _ b p q
  have t3 : Read.val_main_v12 (F := Ideal) x (ix3 b p q) = Z x b.val 3 (p.val + 1) (q.val + 2) := tap x 3 1 2 _ _ b p q
  have t4 : Read.val_main_v15 (F := Ideal) x (ix3 b p q) = Z x b.val 4 (p.val + 1) (q.val + 1) := tap x 4 1 1 _ _ b p q
  have t5 : Read.val_main_v18 (F := Ideal) x (ix3 b p q) = Z x b.val 5 (p.val + 1) (q.val + 0) := tap x 5 1 0 _ _ b p q
  have t6 : Read.val_main_v21 (F := Ideal) x (ix3 b p q) = Z x b.val 6 (p.val + 0) (q.val + 2) := tap x 6 0 2 _ _ b p q
  have t7 : Read.val_main_v24 (F := Ideal) x (ix3 b p q) = Z x b.val 7 (p.val + 0) (q.val + 1) := tap x 7 0 1 _ _ b p q
  have t8 : Read.val_main_v27 (F := Ideal) x (ix3 b p q) = Z x b.val 8 (p.val + 0) (q.val + 0) := tap x 8 0 0 _ _ b p q
  rw [Read.val_main_v29_apply, ej, Read.val_main_v28_apply, Read.val_main_v25_apply, Read.val_main_v22_apply,
    Read.val_main_v19_apply, Read.val_main_v16_apply, Read.val_main_v13_apply, Read.val_main_v10_apply,
    Read.val_main_v7_apply, Read.val_main_v4_apply, Read.val_main_v1_apply, Read.val_main_cst_apply,
    t0, t1, t2, t3, t4, t5, t6, t7, t8]
  show Ideal.ofBits .f32 0x00000000#32 + Z x b.val 0 (p.val + 2) (q.val + 2) + Z x b.val 1 (p.val + 2) (q.val + 1)
      + Z x b.val 2 (p.val + 2) (q.val + 0) + Z x b.val 3 (p.val + 1) (q.val + 2) + Z x b.val 4 (p.val + 1) (q.val + 1)
      + Z x b.val 5 (p.val + 1) (q.val + 0) + Z x b.val 6 (p.val + 0) (q.val + 2) + Z x b.val 7 (p.val + 0) (q.val + 1)
      + Z x b.val 8 (p.val + 0) (q.val + 0)
    = 0 + Z x b.val 0 (p.val + 2) (q.val + 2) + Z x b.val 1 (p.val + 2) (q.val + 1)
      + Z x b.val 2 (p.val + 2) q.val + Z x b.val 3 (p.val + 1) (q.val + 2) + Z x b.val 4 (p.val + 1) (q.val + 1)
      + Z x b.val 5 (p.val + 1) q.val + Z x b.val 6 p.val (q.val + 2) + Z x b.val 7 p.val (q.val + 1)
      + Z x b.val 8 p.val q.val
  rw [Ideal.ofBits_zero_f32]
  rfl

end Cert.Fold

end
-- ==== Proof.lean ====
/-
  The fold (col2im with a 3×3 identity kernel, stride 1, padding 1) computed by a kernel that shifts channel planes by
  rotating them and masking the wrapped row or column, against a reference that pads every plane with a border of
  zeros and adds nine windows of the padded array: equal results over the extended reals.

  Output pixel (p, q) of image b is the sum over taps (i, j), i, j = 0, 1, 2, of channel 3·i + j at (p + 1 − i,
  q + 1 − j), a tap outside the plane counting zero. Both programs obtain "zero outside" without arithmetic on the
  entry (a choice between the entry and zero; a pad), so each tap is the same extended real in both, and the two
  programs differ only in the order and grouping of nine additions (the kernel adds column of taps by column of taps,
  the reference channel by channel onto zero). Addition of extended reals is commutative and associative with neutral
  zero, so the sums agree at every input, the infinities included: the finiteness precondition is not used.

  The modules: Bordered (the fold `G` in the coordinates of a plane with a border of zeros, and the regrouping law),
  MaskedShift (a rotate-and-mask shift is a change of bordered coordinates by one), KernelFold (the kernel's block,
  pixel by pixel), KernelArray (the blocks tile the result array: the kernel's run ends at `G` of its argument),
  RefFold (the reference's result is `G` of its argument). The three frames are the generated ones; the idealization
  rewrote nothing, so its conjunct is trivial.
-/
import proofs.«155507_j55791625175251_2_alg».proof.Defs
import proofs.«155507_j55791625175251_2_alg».proof.Proof.Gen.Kernel
import proofs.«155507_j55791625175251_2_alg».proof.Proof.Gen.Kernel.Skeleton
import proofs.«155507_j55791625175251_2_alg».proof.Proof.Gen.Kernel.Launch
import proofs.«155507_j55791625175251_2_alg».proof.Proof.Gen.Kernel.Points
import proofs.«155507_j55791625175251_2_alg».proof.Proof.Gen.Kernel.Frame
import proofs.«155507_j55791625175251_2_alg».proof.Proof.Gen.KernelIdeal
import proofs.«155507_j55791625175251_2_alg».proof.Proof.Gen.KernelIdeal.Skeleton
import proofs.«155507_j55791625175251_2_alg».proof.Proof.Gen.KernelIdeal.Launch
import proofs.«155507_j55791625175251_2_alg».proof.Proof.Gen.KernelIdeal.Points
import proofs.«155507_j55791625175251_2_alg».proof.Proof.Gen.KernelIdeal.Frame
import proofs.«155507_j55791625175251_2_alg».proof.Proof.Gen.ReferenceIdeal
import proofs.«155507_j55791625175251_2_alg».proof.Proof.Gen.Pre_finite_inputs
import proofs.«155507_j55791625175251_2_alg».proof.Proof.Gen.KernelIdeal.Value
import proofs.«155507_j55791625175251_2_alg».proof.Proof.Gen.ReferenceIdeal.Run
import proofs.«155507_j55791625175251_2_alg».proof.Proof.Gen.ReferenceIdeal.Read
import proofs.«155507_j55791625175251_2_alg».proof.Proof.KernelArray
import proofs.«155507_j55791625175251_2_alg».proof.Proof.RefFold
import Idealize.ShloMosaic.Adequacy
import Idealize.ShloMosaic.Init

noncomputable section

namespace Cert.Proof

open Idealize.ShloMosaic Idealize.ShloMosaic.TcCoe Idealize.SL.Sem

/-- The word-level kernel runs and leaves its argument unchanged. -/
theorem frame_kernel : Cert.frame_Kernel := fun m ρ _ => Cert.Kernel.Gen.frame m ρ

/-- The idealized kernel runs and leaves its argument unchanged. -/
theorem frame_kernelIdeal : Cert.frame_KernelIdeal := fun m ρ _ => Cert.KernelIdeal.Gen.frame m ρ

/-- The idealized reference runs and leaves its argument unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both idealized programs end at the fold `G` of their argument, and the arguments agree. -/
theorem algebraic : Cert.algebraic_KernelIdeal_ReferenceIdeal := by
  intro m ρ m' ρ' _ hagree
  refine ⟨fun c => Cert.Fold.G (m ((c : Thread Cert.KernelIdeal.nD Cert.KernelIdeal.τ).loc Cert.KernelIdeal.main_arg0)),
    Cert.Fold.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.Fold.ref_is_G, hagree c]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
